-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S512x4096 : Shape := ⟨2, ![512, 4096]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S16384x4096 : Shape := ⟨2, ![16384, 4096]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S512x4096, .bf16⟩
  | .hbm, ⟨3, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x4096, .bf16⟩
  | .local _ .vmem, ⟨7, _⟩ => ⟨S512x4096, .f32⟩
  | .local _ .vmem, ⟨8, _⟩ => ⟨S512x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  transposes_S1024x512_p1_0_S512x1024 : S1024x512.Transposes [1, 0] S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .bf16 = 32 ∨ (Rect.block (s := S512x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S16384x4096.size a
  hwx1_2 : ∀ i : grid1.Coords, EltTy.bits .f32 = 32 ∨ (Rect.block (s := S16384x4096) S512x4096.size (cc1_transform_2 i) (hinb1_2 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x512, .f32⟩
  | .hbm, ⟨11, _⟩ => ⟨S16384x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.Spec.lean ====
/-
  The specification: cosine similarity of every row of `x` with every row of `w`, on the extended reals.

  A row is first divided by the larger of its Euclidean norm and a small positive floor (so a zero row
  stays zero instead of dividing by zero); entry (b, n) of the result is the inner product of the
  normalised row b of `x` with the normalised row n of `w`. The intermediate array of the two-step
  computation is the normalised `w`, transposed: entry (d, n) is entry (n, d) of the normalised `w`.
  Nothing here mentions a program.
-/
import Idealize.ShloMosaic.PureOps.Ideal
import Idealize.ShloMosaic.PureOps.Ideal.Laws
import Idealize.ShloMosaic.Lib.ValueIdx

noncomputable section

namespace Cert.CosSim

open Idealize.ShloMosaic Idealize.ShloMosaic.ValueIdx

/-- The floor under a row's norm: the single-precision number nearest to 1e-8. -/
abbrev floor : EReal := Ideal.ofBits .f32 0x322BCC77#32

/-- Entry (r, k) of an R × 512 array once row r is divided by max(‖row r‖₂, floor): the entry over the larger
    of the floor and the square root of the row's sum of squares. -/
def unit (R : Nat) (a : (⟨2, ![R, 512]⟩ : Shape).Idx → EReal) (r : Fin R) (k : Fin 512) : EReal :=
  Ideal.div (a (ix2 r k)) (max (Ideal.sqrt (∑ d : Fin 512, a (ix2 r d) * a (ix2 r d))) floor)

/-- A normalised entry depends only on its own row: two arrays (of any heights) that agree along a row of each
    have the same normalised entries along it. -/
theorem unit_congr {R R' : Nat} (a : (⟨2, ![R, 512]⟩ : Shape).Idx → EReal) (b : (⟨2, ![R', 512]⟩ : Shape).Idx → EReal)
    (r : Fin R) (r' : Fin R') (h : ∀ k : Fin 512, a (ix2 r k) = b (ix2 r' k)) (k : Fin 512) :
    unit R a r k = unit R' b r' k := by
  unfold unit
  rw [h k, Finset.sum_congr rfl fun d _ => by rw [h d]]

/-- The normalised `w`, transposed: entry (d, n) is the normalised entry (n, d). -/
def unitT (w : (⟨2, ![4096, 512]⟩ : Shape).Idx → EReal) : (⟨2, ![512, 4096]⟩ : Shape).Idx → EReal :=
  fun i => unit 4096 w ⟨(i 1).val, idx2_lt1 i⟩ ⟨(i 0).val, idx2_lt0 i⟩

/-- The cosine-similarity matrix: entry (b, n) is the inner product of the normalised row b of `x` with the
    normalised row n of `w`. -/
def cosSim (x : (⟨2, ![16384, 512]⟩ : Shape).Idx → EReal) (w : (⟨2, ![4096, 512]⟩ : Shape).Idx → EReal) :
    (⟨2, ![16384, 4096]⟩ : Shape).Idx → EReal :=
  fun i => ∑ k : Fin 512, unit 16384 x ⟨(i 0).val, idx2_lt0 i⟩ k * unit 4096 w ⟨(i 1).val, idx2_lt1 i⟩ k

theorem unitT_ix2 (w : (⟨2, ![4096, 512]⟩ : Shape).Idx → EReal) (d : Fin 512) (n : Fin 4096) :
    unitT w (ix2 d n) = unit 4096 w n d := rfl

theorem cosSim_ix2 (x : (⟨2, ![16384, 512]⟩ : Shape).Idx → EReal) (w : (⟨2, ![4096, 512]⟩ : Shape).Idx → EReal)
    (b : Fin 16384) (n : Fin 4096) :
    cosSim x w (ix2 b n) = ∑ k : Fin 512, unit 16384 x b k * unit 4096 w n k := rfl

/-- The same entry with the second factor read off the transposed normalised weights. -/
theorem cosSim_ix2_T (x : (⟨2, ![16384, 512]⟩ : Shape).Idx → EReal) (w : (⟨2, ![4096, 512]⟩ : Shape).Idx → EReal)
    (b : Fin 16384) (n : Fin 4096) :
    cosSim x w (ix2 b n) = ∑ k : Fin 512, unit 16384 x b k * unitT w (ix2 k n) := rfl

end Cert.CosSim

end
-- ==== Proof.RefValue.lean ====
/-
  The reference computes the specification.

  Read one operation at a time, the reference divides every entry of `x` by the larger of the floor and the
  square root of its row's sum of squares (the sum starting from zero), does the same to `w`, and contracts
  the two normalised arrays over their common axis: entry (b, n) of its result is the sum over k of the
  normalised x[b, k] times the normalised w[n, k], which is the cosine-similarity matrix as specified.
-/
import proofs.«159719_j49117245997167_1_alg».proof.Proof.Gen.ReferenceIdeal.Read
import proofs.«159719_j49117245997167_1_alg».proof.Proof.Spec

noncomputable section

namespace Cert.ReferenceIdeal.IsCosSim

open Cert.ReferenceIdeal Cert.ReferenceIdeal.Gen Cert.ReferenceIdeal.Read
open Idealize.ShloMosaic Idealize.ShloMosaic.ValueIdx Cert.CosSim

/-- The reference's normalised `x` at (b, k): the entry over max(sqrt(0 + Σ_d x[b, d]²), floor). -/
theorem xn_eq (x : (⟨S16384x512, .f32⟩ : BufTy).Contents (Elt Ideal)) (b : Fin 16384) (k : Fin 512) :
    val_main_v7 (F := Ideal) x (ix2 b k) = unit 16384 x b k := by
  have e6 : idx_main_v6 (ix2 b k) = ix2 b (0 : Fin 1) :=
    funext fun a => Fin.ext (by match a with | ⟨0, _⟩ => rfl | ⟨1, _⟩ => rfl)
  have e2 : idx_main_v2 (ix2 b (0 : Fin 1)) = ix1 b :=
    funext fun a => Fin.ext (by match a with | ⟨0, _⟩ => rfl)
  have e1 : ∀ d : Fin 512, idx_main_v1 (ix1 b) d = ix2 b d := fun d =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply, e6, e2]
  simp only [e1, val_main_v0_apply, Ideal.hostDivf_def, Ideal.maximumf_def, Ideal.hostUnary_sqrt_def,
    Ideal.ofBits_def, Ideal.ofBits_zero_f32, zero_add, Ideal.mulf_def]
  rfl

/-- The reference's normalised `w` at (n, k), likewise. -/
theorem wn_eq (w : (⟨S4096x512, .f32⟩ : BufTy).Contents (Elt Ideal)) (n : Fin 4096) (k : Fin 512) :
    val_main_v15 (F := Ideal) w (ix2 n k) = unit 4096 w n k := by
  have e14 : idx_main_v14 (ix2 n k) = ix2 n (0 : Fin 1) :=
    funext fun a => Fin.ext (by match a with | ⟨0, _⟩ => rfl | ⟨1, _⟩ => rfl)
  have e10 : idx_main_v10 (ix2 n (0 : Fin 1)) = ix1 n :=
    funext fun a => Fin.ext (by match a with | ⟨0, _⟩ => rfl)
  have e9 : ∀ d : Fin 512, idx_main_v9 (ix1 n) d = ix2 n d := fun d =>
    funext fun a => Fin.ext (by match a with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply, e14, e10]
  simp only [e9, val_main_v8_apply, Ideal.hostDivf_def, Ideal.maximumf_def, Ideal.hostUnary_sqrt_def,
    Ideal.ofBits_def, Ideal.ofBits_zero_f32, zero_add, Ideal.mulf_def]
  rfl

/-- The reference's result is the cosine-similarity matrix of its two arguments. -/
theorem result_eq (x : (⟨S16384x512, .f32⟩ : BufTy).Contents (Elt Ideal)) (w : (⟨S4096x512, .f32⟩ : BufTy).Contents (Elt Ideal)) :
    val_main_v16 (F := Ideal) x w = cosSim x w := by
  funext i
  obtain ⟨b, n, rfl⟩ : ∃ (b : Fin 16384) (n : Fin 4096), i = ix2 b n := ⟨i 0, i 1, eq_ix2 i⟩
  rw [val_main_v16_apply, cosSim_ix2]
  refine Finset.sum_congr rfl fun k _ => ?_
  have el : lidx_main_v16 (ix2 b n) k = ix2 b k :=
    funext fun a => Fin.ext (by match a with | ⟨0, _⟩ => rfl | ⟨1, _⟩ => rfl)
  have er : ridx_main_v16 (ix2 b n) k = ix2 n k :=
    funext fun a => Fin.ext (by match a with | ⟨0, _⟩ => rfl | ⟨1, _⟩ => rfl)
  rw [el, er, xn_eq, wn_eq]

end Cert.ReferenceIdeal.IsCosSim

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelRun.lean ====
/-
  The idealized kernel's whole run, with its result array named.

  The program is two launches: the first writes the normalised, transposed weight matrix into an
  intermediate array, the second multiplies each normalised block of rows of `x` by it. The
  argument arrays are never written. Here the run is stated with the result array after the second
  launch named as "what the second launch's write-backs leave, from the contents the first launch
  left", the two argument arrays unchanged. What those contents ARE is the business of the two
  value modules; nothing is computed here.
-/
import proofs.«159719_j49117245997167_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The intermediate array (the normalised, transposed weights) as the second launch finds it: what the
    first launch's write-backs leave of it. -/
theorem entry_wnT (c : Dev nD) :
    V1 m ρ c main_v0 = (dat0 (V0 m ρ) c).arrAt 1 cfg0.N := W1_arr m ρ c 1

/-- The first argument as the second launch finds it: the first launch does not touch it. -/
theorem entry_x (c : Dev nD) :
    V1 m ρ c main_arg0 = m ((c : Thread nD τ).loc main_arg0) :=
  W1_of_ne m ρ c main_arg0 (by decide)

/-- The second argument as the first launch finds it: the launch memory. -/
theorem entry_w (c : Dev nD) :
    V0 m ρ c main_arg1 = m ((c : Thread nD τ).loc main_arg1) := rfl

set_option backward.isDefEq.respectTransparency.types false in
/-- Every weakly fair execution of the program terminates, nothing faulting; the result array ends at what the
    second launch's write-backs leave, and the two arguments end as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c)⟩)

end Cert.KernelIdeal.Whole

end
-- ==== Proof.WeightsValue.lean ====
/-
  The first launch writes the normalised weights, transposed.

  At a point t the launch reads rows 1024·t … 1024·t + 1023 of `w` (all 512 columns), divides each row by the
  larger of the floor and the square root of the row's sum of squares, transposes the 1024 × 512 block and writes
  it as columns 1024·t … 1024·t + 1023 of the 512 × 4096 intermediate array. A normalised entry depends only on
  its own row, and the block holds whole rows, so what point t writes is exactly its block of the transposed
  normalised `w`; the four blocks tile the intermediate array, so the array ends holding that function.
-/
import proofs.«159719_j49117245997167_1_alg».proof.Proof.Gen.KernelIdeal.Frame
import proofs.«159719_j49117245997167_1_alg».proof.Proof.Spec
import proofs.«159719_j49117245997167_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Weights

open Cert.KernelIdeal Cert.KernelIdeal.Gen
open Idealize.ShloMosaic Idealize.ShloMosaic.TcCoe Idealize.SL.Sem Idealize.ShloMosaic.ValueIdx Cert.CosSim
open Cert.Lib.Keepdims
open Idealize.ShloMosaic.Pipeline (Dat)

/-! ## The body's arithmetic at an index -/

/-- The sum along a row of a 1024 × 512 block: the lane reduction from the zero accumulator, read at row r. -/
theorem rowSum (v : FVec Ideal S1024x512 .f32) (h : S1024x512.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 512, v (ix2 r k) :=
  (Ideal.multiReduction_add_single v 0x00000000#32 h hφ hacc (ix1 r)).trans
    (Finset.sum_congr rfl fun k _ => congrArg v
      (funext fun a => Fin.ext (by match a with | ⟨0, _⟩ => rfl | ⟨1, _⟩ => rfl)))

/-- What the body stores at (d, r) of its 512 × 1024 output block: entry (r, d) of the loaded block, normalised. -/
theorem stored_apply (v0 : Vec Ideal S1024x512 .f32) (d : Fin 512) (r : Fin 1024) :
    k0_pay1 (F := Ideal) v0 (ix2 d r) = unit 1024 v0 r d := by
  unfold k0_pay1
  dsimp only
  rw [truncf_apply, transpose_ix2_apply, divf_apply, broadcastTo_a1_ab_apply, maximumf_apply, broadcast_apply]
  unfold unit
  refine congrArg (fun s => Ideal.div (v0 (ix2 r d)) (max (Ideal.sqrt s) floor)) ?_
  refine (shapeCast_a_a1_apply _ shapeCasts_S1024_S1024x1 r 0).trans ?_
  exact rowSum (mulf v0 v0) _ _ _ r

/-- The same at a point of the grid, with the loaded block's rows named as rows of a 4096 × 512 array `W`: if row
    (y 1) of the block is row (i 1) of `W`, what is stored at y is entry i of the transposed normalised `W`. -/
theorem stored_block (B : Vec Ideal S1024x512 .f32) (W : S4096x512.Idx → EReal) (y : S512x1024.Idx) (i : S512x4096.Idx)
    (hi0 : (i 0).val = (y 0).val)
    (hrow : ∀ k : Fin 512, B (ix2 (⟨(y 1).val, idx2_lt1 y⟩ : Fin 1024) k) = W (ix2 (⟨(i 1).val, idx2_lt1 i⟩ : Fin 4096) k)) :
    k0_pay1 (F := Ideal) B y = unitT W i := by
  obtain ⟨d, r, rfl⟩ : ∃ (d : Fin 512) (r : Fin 1024), y = ix2 d r := ⟨y 0, y 1, eq_ix2 y⟩
  obtain ⟨d', n, rfl⟩ : ∃ (d' : Fin 512) (n : Fin 4096), i = ix2 d' n := ⟨i 0, i 1, eq_ix2 i⟩
  obtain rfl : d' = d := Fin.ext hi0
  rw [stored_apply, unitT_ix2]
  exact unit_congr B W r n hrow d'

/-! ## From the blocks to the array -/

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: at point t the input block is block (t, 0) of `w`, the output block is block
    (0, t) of the intermediate array. -/
theorem block_indices : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- What point t writes back is block t of the transposed normalised `w`. -/
theorem written_block (c : Dev nD) (t : Fin cfg0.N) :
    (dat0 (V0 m ρ) c).flushed 1 t
      = ((cfg0.win 1).blk t).view.read (Elt Ideal) (unitT (m ((c : Thread nD τ).loc main_arg1))) := by
  show (cfg0.win 1).cut (grid0.coords t) ((dat0 (V0 m ρ) c).after 1 t) = _
  rw [after0_1]
  unfold out0_1
  rw [View.canon_unit_zero zero_offsets]
  simp only [View.ld_unit_zero (S := S1024x512) zero_offsets]
  obtain ⟨e0, e1, e2, e3⟩ := block_indices t
  funext j
  refine stored_block (iblk0 (V0 m ρ) c 0 t) (m ((c : Thread nD τ).loc main_arg1)) j (((cfg0.win 1).blk t).view.emb j) ?_ ?_
  · show win0_1.index t (0 : Fin 2) * 512 + 1 * (j 0).val = (j 0).val
    rw [e2]; omega
  · intro k
    show m ((c : Thread nD τ).loc main_arg1) (((cfg0.win 0).blk t).view.emb (ix2 (⟨(j 1).val, _⟩ : Fin 1024) k)) = _
    refine congrArg (m ((c : Thread nD τ).loc main_arg1)) (funext fun a => Fin.ext ?_)
    match a with
    | ⟨0, _⟩ =>
      show win0_0.index t (0 : Fin 2) * 1024 + 1 * (j 1).val = win0_1.index t (1 : Fin 2) * 1024 + 1 * (j 1).val
      rw [e0, e3]
    | ⟨1, _⟩ =>
      show win0_0.index t (1 : Fin 2) * 512 + 1 * k.val = k.val
      rw [e1]; omega

/-- An index of the intermediate array is in point t's block iff each coordinate is in the block's range. -/
theorem mem_column_block (t : Fin cfg0.N) (i : S512x4096.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v0).slice (win0_1.rect t)).set ↔ _
  rw [View.set_slice_whole, Rect.mem_set_unit]
  exact Iff.rfl

/-- Every index of the intermediate array is in some point's block: column n is written at point n / 1024. -/
theorem columns_covered (i : S512x4096.Idx) :
    ∃ t : Fin cfg0.N, (cfg0.win 1).flush t = true ∧ i ∈ ((cfg0.win 1).blk t).view.set := by
  have h0 : (i 0).val < 512 := (i 0).isLt
  have h1 : (i 1).val < 4096 := (i 1).isLt
  have ht : (i 1).val / 1024 < grid0.N := by rw [N_0]; omega
  refine ⟨⟨(i 1).val / 1024, ht⟩, flush0_1 _, ?_⟩
  rw [mem_column_block]
  obtain ⟨-, -, e2, e3⟩ := block_indices ⟨(i 1).val / 1024, ht⟩
  intro a
  match a with
  | ⟨0, _⟩ =>
    show win0_1.index ⟨(i 1).val / 1024, ht⟩ (0 : Fin 2) * 512 ≤ (i 0).val
      ∧ (i 0).val < win0_1.index ⟨(i 1).val / 1024, ht⟩ (0 : Fin 2) * 512 + 512
    rw [e2]; omega
  | ⟨1, _⟩ =>
    show win0_1.index ⟨(i 1).val / 1024, ht⟩ (1 : Fin 2) * 1024 ≤ (i 1).val
      ∧ (i 1).val < win0_1.index ⟨(i 1).val / 1024, ht⟩ (1 : Fin 2) * 1024 + 1024
    rw [e3]
    show (i 1).val / 1024 * 1024 ≤ (i 1).val ∧ (i 1).val < (i 1).val / 1024 * 1024 + 1024
    omega

/-- The intermediate array after the first launch: the normalised `w`, transposed. -/
theorem intermediate_eq (c : Dev nD) :
    (dat0 (V0 m ρ) c).arrAt 1 cfg0.N = unitT (m ((c : Thread nD τ).loc main_arg1)) :=
  (dat0 (V0 m ρ) c).arrAt_eq_of_cover 1 (unitT (m ((c : Thread nD τ).loc main_arg1)))
    (fun t _ => written_block m ρ c t) columns_covered

end Cert.KernelIdeal.Weights

end
-- ==== Proof.ProductValue.lean ====
/-
  The second launch writes the cosine-similarity matrix.

  At a point t the launch reads rows 512·t … 512·t + 511 of `x` and the whole 512 × 4096 intermediate array,
  divides each of its rows of `x` by the larger of the floor and the square root of the row's sum of squares, and
  multiplies the normalised 512 × 512 block by the intermediate array, from a zero accumulator: entry (p, n) of the
  product is the sum over k of the normalised x[512·t + p, k] times the intermediate array's entry (k, n). The
  intermediate array is the normalised `w` transposed (the first launch), so that sum is entry (512·t + p, n) of the
  cosine-similarity matrix; the 32 row blocks tile the result array.
-/
import proofs.«159719_j49117245997167_1_alg».proof.Proof.Gen.KernelIdeal.Frame
import proofs.«159719_j49117245997167_1_alg».proof.Proof.Spec
import proofs.«159719_j49117245997167_1_alg».proof.Proof.LibKeepdims
import proofs.«159719_j49117245997167_1_alg».proof.Proof.KernelRun
import proofs.«159719_j49117245997167_1_alg».proof.Proof.WeightsValue
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Product

open Cert.KernelIdeal Cert.KernelIdeal.Gen
open Idealize.ShloMosaic Idealize.ShloMosaic.TcCoe Idealize.SL.Sem Idealize.ShloMosaic.ValueIdx Cert.CosSim
open Cert.Lib.Keepdims
open Idealize.ShloMosaic.Pipeline (Dat)

/-! ## The matrix product at an index -/

/-- The product's dimension numbers: a 512 × 512 left operand and a 512 × 4096 right operand contracted over the
    left's columns and the right's rows. -/
abbrev D := dot_S512x512_S512x4096_S512x4096_1_0_0_1_n_n

theorem lhs_row (i : S512x4096.Idx) (q : D.contr.Idx) : (D.lhsIdx i q 0).val = (i 0).val := by
  unfold DotDims.lhsIdx
  rw [dif_neg (show ¬(0 : Fin S512x512.rank) ∈ D.lhsBatch by decide),
    dif_pos (show (0 : Fin S512x512.rank) ∈ D.lhsNonContracting by decide)]
  rfl
theorem lhs_col (i : S512x4096.Idx) (q : D.contr.Idx) : (D.lhsIdx i q 1).val = (q ⟨0, by decide⟩).val :=
  D.lhsIdx_val_of_single rfl i q
theorem rhs_row (i : S512x4096.Idx) (q : D.contr.Idx) : (D.rhsIdx i q 0).val = (q ⟨0, by decide⟩).val :=
  D.rhsIdx_val_of_single rfl i q
theorem rhs_col (i : S512x4096.Idx) (q : D.contr.Idx) : (D.rhsIdx i q 1).val = (i 1).val := by
  unfold DotDims.rhsIdx
  rw [dif_neg (show ¬(1 : Fin S512x4096.rank) ∈ D.rhsBatch by decide),
    dif_pos (show (1 : Fin S512x4096.rank) ∈ D.rhsNonContracting by decide)]
  rfl

/-- The product into a zero accumulator at (p, n): the sum over k of left (p, k) times right (k, n). -/
theorem matmul_ix2 (lhs : FVec Ideal S512x512 .bf16) (rhs : FVec Ideal S512x4096 .bf16) (p : Fin 512) (n : Fin 4096) :
    matmul D none lhs rhs (constant S512x4096 .f32 0x00000000#32) (ix2 p n)
      = ∑ k : Fin 512, lhs (ix2 p k) * rhs (ix2 k n) := by
  refine (Ideal.matmul_constant_zero_apply D none lhs rhs (ix2 p n)).trans ?_
  rw [← Equiv.sum_comp (contrEquiv1 D 512 rfl rfl).symm]
  refine Finset.sum_congr rfl fun k _ => ?_
  have hk := contrEquiv1_symm_val D 512 rfl rfl k
  have el : D.lhsIdx (ix2 p n) ((contrEquiv1 D 512 rfl rfl).symm k) = ix2 p k := funext fun a => Fin.ext (by
    match a with
    | ⟨0, _⟩ => exact lhs_row _ _
    | ⟨1, _⟩ => exact (lhs_col _ _).trans hk)
  have er : D.rhsIdx (ix2 p n) ((contrEquiv1 D 512 rfl rfl).symm k) = ix2 k n := funext fun a => Fin.ext (by
    match a with
    | ⟨0, _⟩ => exact (rhs_row _ _).trans hk
    | ⟨1, _⟩ => exact rhs_col _ _)
  rw [el, er]

/-! ## The body's arithmetic at an index -/

/-- The sum along a row of a 512 × 512 block: the lane reduction from the zero accumulator, read at row r. -/
theorem rowSum (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 512, v (ix2 r k) :=
  (Ideal.multiReduction_add_single v 0x00000000#32 h hφ hacc (ix1 r)).trans
    (Finset.sum_congr rfl fun k _ => congrArg v
      (funext fun a => Fin.ext (by match a with | ⟨0, _⟩ => rfl | ⟨1, _⟩ => rfl)))

/-- What the body stores at (p, n) of its 512 × 4096 output block: the sum over k of the loaded block of `x`,
    normalised, at (p, k) times the loaded intermediate array at (k, n). -/
theorem stored_apply (v0 : Vec Ideal S512x512 .f32) (v10 : Vec Ideal S512x4096 .bf16) (p : Fin 512) (n : Fin 4096) :
    k1_pay1 (F := Ideal) v0 v10 (ix2 p n) = ∑ k : Fin 512, unit 512 v0 p k * v10 (ix2 k n) := by
  unfold k1_pay1
  dsimp only
  refine (matmul_ix2 _ _ p n).trans ?_
  refine Finset.sum_congr rfl fun k _ => ?_
  rw [shapeCast_self]
  refine congrArg (· * v10 (ix2 k n)) ?_
  rw [truncf_apply, divf_apply, broadcastTo_a1_ab_apply, maximumf_apply, broadcast_apply]
  unfold unit
  refine congrArg (fun s => Ideal.div (v0 (ix2 p k)) (max (Ideal.sqrt s) floor)) ?_
  refine (shapeCast_a_a1_apply _ shapeCasts_S512_S512x1 p 0).trans ?_
  exact rowSum (mulf v0 v0) _ _ _ p

/-- The same at a point of the grid, with the loaded blocks named: if row (y 0) of the block of `x` is row (i 0) of a
    16384 × 512 array `X` and the loaded intermediate array is the transposed normalised `W`, what is stored at y is
    entry i of the cosine-similarity matrix of `X` and `W`. -/
theorem stored_block (B : Vec Ideal S512x512 .f32) (T : Vec Ideal S512x4096 .bf16)
    (X : S16384x512.Idx → EReal) (W : S4096x512.Idx → EReal) (y : S512x4096.Idx) (i : S16384x4096.Idx)
    (hi1 : (i 1).val = (y 1).val)
    (hrow : ∀ k : Fin 512, B (ix2 (⟨(y 0).val, idx2_lt0 y⟩ : Fin 512) k) = X (ix2 (⟨(i 0).val, idx2_lt0 i⟩ : Fin 16384) k))
    (hT : ∀ (k : Fin 512) (n : Fin 4096), T (ix2 k n) = unitT W (ix2 k n)) :
    k1_pay1 (F := Ideal) B T y = cosSim X W i := by
  obtain ⟨p, n, rfl⟩ : ∃ (p : Fin 512) (n : Fin 4096), y = ix2 p n := ⟨y 0, y 1, eq_ix2 y⟩
  obtain ⟨b, n', rfl⟩ : ∃ (b : Fin 16384) (n' : Fin 4096), i = ix2 b n' := ⟨i 0, i 1, eq_ix2 i⟩
  obtain rfl : n' = n := Fin.ext hi1
  rw [stored_apply, cosSim_ix2_T]
  refine Finset.sum_congr rfl fun k _ => ?_
  rw [hT k n', unit_congr B X p b hrow k]

/-! ## From the blocks to the array -/

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: at point t the block of `x` is block (t, 0), the intermediate array is read whole,
    the output block is block (t, 0) of the result. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the cosine-similarity matrix of the two arguments. -/
theorem written_block (c : Dev nD) (t : Fin cfg1.N) :
    (dat1 (V1 m ρ) c).flushed 2 t
      = ((cfg1.win 2).blk t).view.read (Elt Ideal)
          (cosSim (m ((c : Thread nD τ).loc main_arg0)) (m ((c : Thread nD τ).loc main_arg1))) := by
  show (cfg1.win 2).cut (grid1.coords t) ((dat1 (V1 m ρ) c).after 2 t) = _
  rw [after1_2]
  unfold out1_2
  rw [View.canon_unit_zero zero_offsets]
  simp only [View.ld_unit_zero (S := S512x512) zero_offsets, View.ld_unit_zero (S := S512x4096) zero_offsets]
  obtain ⟨e0, e1, e2, e3, e4, e5⟩ := block_indices t
  funext j
  refine stored_block (iblk1 (V1 m ρ) c 0 t) (iblk1 (V1 m ρ) c 1 t) (m ((c : Thread nD τ).loc main_arg0))
    (m ((c : Thread nD τ).loc main_arg1)) j (((cfg1.win 2).blk t).view.emb j) ?_ ?_ ?_
  · show win1_2.index t (1 : Fin 2) * 4096 + 1 * (j 1).val = (j 1).val
    rw [e5]; omega
  · intro k
    show V1 m ρ c main_arg0 (((cfg1.win 0).blk t).view.emb (ix2 (⟨(j 0).val, _⟩ : Fin 512) k)) = _
    rw [Whole.entry_x]
    refine congrArg (m ((c : Thread nD τ).loc main_arg0)) (funext fun a => Fin.ext ?_)
    match a with
    | ⟨0, _⟩ =>
      show win1_0.index t (0 : Fin 2) * 512 + 1 * (j 0).val = win1_2.index t (0 : Fin 2) * 512 + 1 * (j 0).val
      rw [e0, e4]
    | ⟨1, _⟩ =>
      show win1_0.index t (1 : Fin 2) * 512 + 1 * k.val = k.val
      rw [e1]; omega
  · intro k n
    show V1 m ρ c main_v0 (((cfg1.win 1).blk t).view.emb (ix2 k n)) = _
    rw [Whole.entry_wnT, Weights.intermediate_eq]
    refine congrArg (unitT (m ((c : Thread nD τ).loc main_arg1))) (funext fun a => Fin.ext ?_)
    match a with
    | ⟨0, _⟩ =>
      show win1_1.index t (0 : Fin 2) * 512 + 1 * k.val = k.val
      rw [e2]; omega
    | ⟨1, _⟩ =>
      show win1_1.index t (1 : Fin 2) * 4096 + 1 * n.val = n.val
      rw [e3]; omega

/-- An index of the result array is in point t's block iff each coordinate is in the block's range. -/
theorem mem_row_block (t : Fin cfg1.N) (i : S16384x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v1).slice (win1_2.rect t)).set ↔ _
  rw [View.set_slice_whole, Rect.mem_set_unit]
  exact Iff.rfl

/-- Every index of the result array is in some point's block: row b is written at point b / 512. -/
theorem rows_covered (i : S16384x4096.Idx) :
    ∃ t : Fin cfg1.N, (cfg1.win 2).flush t = true ∧ i ∈ ((cfg1.win 2).blk t).view.set := by
  have h0 : (i 0).val < 16384 := (i 0).isLt
  have h1 : (i 1).val < 4096 := (i 1).isLt
  have ht : (i 0).val / 512 < grid1.N := by rw [N_1]; omega
  refine ⟨⟨(i 0).val / 512, ht⟩, flush1_2 _, ?_⟩
  rw [mem_row_block]
  obtain ⟨-, -, -, -, e4, e5⟩ := block_indices ⟨(i 0).val / 512, ht⟩
  intro a
  match a with
  | ⟨0, _⟩ =>
    show win1_2.index ⟨(i 0).val / 512, ht⟩ (0 : Fin 2) * 512 ≤ (i 0).val
      ∧ (i 0).val < win1_2.index ⟨(i 0).val / 512, ht⟩ (0 : Fin 2) * 512 + 512
    rw [e4]
    show (i 0).val / 512 * 512 ≤ (i 0).val ∧ (i 0).val < (i 0).val / 512 * 512 + 512
    omega
  | ⟨1, _⟩ =>
    show win1_2.index ⟨(i 0).val / 512, ht⟩ (1 : Fin 2) * 4096 ≤ (i 1).val
      ∧ (i 1).val < win1_2.index ⟨(i 0).val / 512, ht⟩ (1 : Fin 2) * 4096 + 4096
    rw [e5]; omega

/-- The result array after the second launch: the cosine-similarity matrix of the two arguments. -/
theorem result_eq (c : Dev nD) :
    (dat1 (V1 m ρ) c).arrAt 2 cfg1.N
      = cosSim (m ((c : Thread nD τ).loc main_arg0)) (m ((c : Thread nD τ).loc main_arg1)) :=
  (dat1 (V1 m ρ) c).arrAt_eq_of_cover 2
    (cosSim (m ((c : Thread nD τ).loc main_arg0)) (m ((c : Thread nD τ).loc main_arg1)))
    (fun t _ => written_block m ρ c t) rows_covered

/-! ## The run, read -/

/-- Every weakly fair execution of the idealized kernel terminates, nothing faulting, with the result array at the
    cosine-similarity matrix of the two arguments and the arguments unchanged. -/
theorem run : θ_run defs (onTc (τ := τ) (main (F := Ideal))) ⟨m, fun _ => 0, ρ⟩ (fun r => ∀ c : Dev nD,
      r.2.mem ((c.tc : Thread nD τ).loc main_v1)
        = cosSim (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Whole.run_main m ρ)

end Cert.KernelIdeal.Product

end
-- ==== Proof.lean ====
/-
  The kernel computes the cosine-similarity matrix of `x` (16384 × 512) and `w` (4096 × 512) in two launches, and
  the reference computes it with whole-array operations; on the extended reals the two results are the same function
  of the arguments.

  Each row of either argument is divided by the larger of its Euclidean norm and a small floor; entry (b, n) of the
  result is the inner product of normalised row b of `x` with normalised row n of `w` (Proof/Spec.lean). The kernel's
  first launch leaves the normalised `w`, transposed, in an intermediate array (Proof/WeightsValue.lean); its second
  launch multiplies normalised blocks of rows of `x` by that array (Proof/ProductValue.lean). The reference's chain
  of operations is the same function read one operation at a time (Proof/RefValue.lean). A change of float format is
  the identity on the extended reals, the kernel's lane sums and matrix product and the reference's row sums and
  contraction are the same finite sums term for term, and both sides use the same floor; no law that needs finite
  inputs is used. The kernel's idealization rewrote nothing, so there is nothing to preserve.
-/
import proofs.«159719_j49117245997167_1_alg».proof.Defs
import proofs.«159719_j49117245997167_1_alg».proof.Proof.Gen.Kernel
import proofs.«159719_j49117245997167_1_alg».proof.Proof.Gen.Kernel.Skeleton
import proofs.«159719_j49117245997167_1_alg».proof.Proof.Gen.Kernel.Launch
import proofs.«159719_j49117245997167_1_alg».proof.Proof.Gen.Kernel.Points
import proofs.«159719_j49117245997167_1_alg».proof.Proof.Gen.Kernel.Frame
import proofs.«159719_j49117245997167_1_alg».proof.Proof.Gen.KernelIdeal
import proofs.«159719_j49117245997167_1_alg».proof.Proof.Gen.KernelIdeal.Skeleton
import proofs.«159719_j49117245997167_1_alg».proof.Proof.Gen.KernelIdeal.Launch
import proofs.«159719_j49117245997167_1_alg».proof.Proof.Gen.KernelIdeal.Points
import proofs.«159719_j49117245997167_1_alg».proof.Proof.Gen.KernelIdeal.Frame
import proofs.«159719_j49117245997167_1_alg».proof.Proof.Gen.ReferenceIdeal
import proofs.«159719_j49117245997167_1_alg».proof.Proof.Gen.Pre_finite_inputs
import proofs.«159719_j49117245997167_1_alg».proof.Proof.Gen.ReferenceIdeal.Run
import proofs.«159719_j49117245997167_1_alg».proof.Proof.Gen.ReferenceIdeal.Read
import proofs.«159719_j49117245997167_1_alg».proof.Proof.RefValue
import proofs.«159719_j49117245997167_1_alg».proof.Proof.ProductValue
import Idealize.ShloMosaic.Adequacy
import Idealize.ShloMosaic.Init

noncomputable section

namespace Cert.Proof

open Idealize.ShloMosaic Idealize.SL.Sem

/-- The kernel as printed runs to the end, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w`, the idealized kernel's result array and the reference's both end at the
    cosine-similarity matrix of `x` and `w`. -/
theorem algebraic : Cert.algebraic_KernelIdeal_ReferenceIdeal := by
  intro m ρ m' ρ' _ hagree
  refine ⟨fun c => Cert.CosSim.cosSim (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.IsCosSim.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
